-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S650000x128 : Shape := ⟨2, ![650000, 128]⟩
abbrev S1x128 : Shape := ⟨2, ![1, 128]⟩
abbrev S5000x128 : Shape := ⟨2, ![5000, 128]⟩
abbrev S5000x1 : Shape := ⟨2, ![5000, 1]⟩
abbrev S1x1 : Shape := ⟨2, ![1, 1]⟩
abbrev S5000 : Shape := ⟨1, ![5000]⟩

abbrev nBuf : Space → Nat
  | .hbm => 58
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S650000, .i32⟩
  | .hbm, ⟨24, _⟩ => ⟨S650000, .i1⟩
  | .hbm, ⟨25, _⟩ => ⟨S_, .i32⟩
  | .hbm, ⟨26, _⟩ => ⟨S650000, .i32⟩
  | .hbm, ⟨27, _⟩ => ⟨S650000, .i32⟩
  | .hbm, ⟨28, _⟩ => ⟨S650000, .i32⟩
  | .hbm, ⟨29, _⟩ => ⟨S650000x1, .i32⟩
  | .hbm, ⟨30, _⟩ => ⟨S650000x128, .f32⟩
  | .hbm, ⟨31, _⟩ => ⟨S_, .f32⟩
  | .hbm, ⟨32, _⟩ => ⟨S50000x128, .f32⟩
  | .hbm, ⟨33, _⟩ => ⟨S650000x1, .i32⟩
  | .hbm, ⟨34, _⟩ => ⟨S50000x128, .f32⟩
  | .hbm, ⟨35, _⟩ => ⟨S1x128, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000x128, .f32⟩
  | .hbm, ⟨47, _⟩ => ⟨S_, .f32⟩
  | .hbm, ⟨48, _⟩ => ⟨S50000x128, .f32⟩
  | .hbm, ⟨49, _⟩ => ⟨S650000x1, .i32⟩
  | .hbm, ⟨50, _⟩ => ⟨S50000x128, .f32⟩
  | .hbm, ⟨51, _⟩ => ⟨S1x128, .f32⟩
  | .hbm, ⟨52, _⟩ => ⟨S50000x1, .f32⟩
  | .hbm, ⟨53, _⟩ => ⟨S128, .f32⟩
  | .hbm, ⟨54, _⟩ => ⟨S1x128, .f32⟩
  | .hbm, ⟨55, _⟩ => ⟨S1x1, .f32⟩
  | .hbm, ⟨56, _⟩ => ⟨S50000x1, .f32⟩
  | .hbm, ⟨57, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x1_S128 : S128x1.ShapeCasts S128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  scatter_S50000_S650000x1_S650000_n_0_0_1_wf : ScatterDims.WF S50000 S650000x1 S650000 [] [0] [0] 1
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v20) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S50000 : Shape := ⟨1, ![50000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S650000x128 : Shape := ⟨2, ![650000, 128]⟩
abbrev S1x128 : Shape := ⟨2, ![1, 128]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S50000, .i32⟩
  | .hbm, ⟨10, _⟩ => ⟨S650000, .i32⟩
  | .hbm, ⟨11, _⟩ => ⟨S650000, .i32⟩
  | .hbm, ⟨12, _⟩ => ⟨S_, .f32⟩
  | .hbm, ⟨13, _⟩ => ⟨S650000, .f32⟩
  | .hbm, ⟨14, _⟩ => ⟨S_, .f32⟩
  | .hbm, ⟨15, _⟩ => ⟨S50000, .f32⟩
  | .hbm, ⟨16, _⟩ => ⟨S650000x1, .i32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S650000, .i32⟩
  | .hbm, ⟨24, _⟩ => ⟨S650000, .i1⟩
  | .hbm, ⟨25, _⟩ => ⟨S_, .i32⟩
  | .hbm, ⟨26, _⟩ => ⟨S650000, .i32⟩
  | .hbm, ⟨27, _⟩ => ⟨S650000, .i32⟩
  | .hbm, ⟨28, _⟩ => ⟨S650000, .i32⟩
  | .hbm, ⟨29, _⟩ => ⟨S650000x1, .i32⟩
  | .hbm, ⟨30, _⟩ => ⟨S650000x128, .f32⟩
  | .hbm, ⟨31, _⟩ => ⟨S_, .f32⟩
  | .hbm, ⟨32, _⟩ => ⟨S50000x128, .f32⟩
  | .hbm, ⟨33, _⟩ => ⟨S650000x1, .i32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S50000x128, .f32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000x128, .f32⟩
  | .hbm, ⟨57, _⟩ => ⟨S_, .f32⟩
  | .hbm, ⟨58, _⟩ => ⟨S50000x128, .f32⟩
  | .hbm, ⟨59, _⟩ => ⟨S650000x1, .i32⟩
  | .hbm, ⟨60, _⟩ => ⟨S50000x128, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x1, .f32⟩
  | .hbm, ⟨69, _⟩ => ⟨S1x1, .f32⟩
  | .hbm, ⟨70, _⟩ => ⟨S50000x1, .f32⟩
  | .hbm, ⟨71, _⟩ => ⟨S50000x1, .f32⟩
  | .hbm, ⟨72, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_3 : Ref sig .tc := ⟨.hbm, 48, rfl⟩
abbrev main_v32 : Ref sig .tc := ⟨.hbm, 49, rfl⟩
abbrev main_v33 : Ref sig .tc := ⟨.hbm, 50, rfl⟩
abbrev main_c_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S650000x1_S650000_n_0_0_1_wf : ScatterDims.WF S50000 S650000x1 S650000 [] [0] [0] 1
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel's whole run with its result kept: every weakly fair execution of @main ends with the result
  array at the last boundary's contents and the nine argument arrays as launched. @main is five segments — a stretch
  of host operations, the first dense layer's region, a second stretch, the read-out region, a last reshape — and the
  contents at each boundary are a fold from the launch memory; the last boundary's contents at the result buffer are
  what the value proof opens.
-/
import proofs.«168598_j43009802502548_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents (the fold of the five segments from the launch memory) and every argument array as launched. -/
theorem run : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.WholeRun

end
-- ==== Proof.SharedHost.lean ====
/-
  One round of message passing as both programs spell it, kept closed: every edge (with the self loops appended) reads
  the feature row of its source node, and the rows are summed into the edge's destination node, starting from zero.
  A source index below zero is first moved up by the number of nodes. The kernel's program and the reference apply
  exactly this to the rescaled first layer, so neither the gather nor the scatter is ever opened.
-/
import proofs.«168598_j43009802502548_2_alg».proof.Proof.Gen.ReferenceIdeal.Read

noncomputable section

namespace Cert.ReferenceIdeal.Shared

open Cert.ReferenceIdeal Cert.ReferenceIdeal.Gen Cert.ReferenceIdeal.Read
open Idealize.ShloMosaic Idealize.ShloMosaic.TcCoe

variable {F : FTy → Type} [FloatOps F]

/-- The rows of h gathered along the edges' sources x1 and summed at the edges' destinations x2. -/
def aggregate (h : (⟨S50000x128, .f32⟩ : BufTy).Contents (Elt F)) (x1 x2 : (⟨S600000, .i32⟩ : BufTy).Contents (Elt F)) :
    (⟨S50000x128, .f32⟩ : BufTy).Contents (Elt F) :=
  Host.scatterAdd scatter_S50000x128_S650000x1_S650000x128_1_0_0_1 (val_main_v39 (F := F)) (val_main_v40 (F := F) x2)
    (Host.gather gather_S50000x128_S650000x1_S650000x128_1_0_n_n_0_1_1128 h (val_main_v37 (F := F) x1))

/-- The reference's second aggregate is that round applied to its rescaled first layer. -/
theorem second_aggregate (x0 : (⟨S50000x128, .f32⟩ : BufTy).Contents (Elt F)) (x1 x2 : (⟨S600000, .i32⟩ : BufTy).Contents (Elt F))
    (x3 : (⟨S128x128, .f32⟩ : BufTy).Contents (Elt F)) (x4 : (⟨S128, .f32⟩ : BufTy).Contents (Elt F)) :
    val_main_v41 (F := F) x0 x1 x2 x3 x4 = aggregate (val_main_v31 (F := F) x0 x1 x2 x3 x4) x1 x2 := rfl

end Cert.ReferenceIdeal.Shared

end
-- ==== Proof.Spec.lean ====
/-
  The two dense stages of a two-layer graph convolution with symmetric degree normalisation, written once as
  functions of arrays of extended reals, index by index.

  With A the aggregated features of the 50000 nodes (128 per node), d the inverse square root of the degrees, W a
  128 × 128 weight matrix and b a bias:
    pre A d W b r j  =  Σ_k (A[r,k] · d[r]) · W[k,j]  +  b[j]            (the normalised row r through the layer)
    hidden  …  [r,j] =  max (pre … r j) 0 · d[r]                          (rectified, and scaled for the next gather)
    readout …  [r]   =  Σ_j (pre … r j) · Wr[j,0]  +  br[0]               (the regressor on the second layer)
  The zero of the rectifier is kept as the binary32 word of 0.0: both programs spell it so, and nothing here needs
  its value.
-/
import Idealize.ShloMosaic.PureOps.Ideal
import Idealize.ShloMosaic.Lib.ValueIdx

noncomputable section

namespace Cert.GraphConv

open Idealize.ShloMosaic Idealize.ShloMosaic.ValueIdx

/-- Row r of the normalised aggregate through one dense layer, at output feature j. -/
def pre (A : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal) (r : Fin 50000) (j : Fin 128) : EReal :=
  (∑ k : Fin 128, (A (ix2 r k) * d (ix1 r)) * W (ix2 k j)) + b (ix1 j)

/-- The first layer's output as the second layer's gather wants it: rectified, then scaled by the node's own
    inverse-root degree. -/
def hidden (A : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal) :
    (⟨2, ![50000, 128]⟩ : Shape).Idx → EReal :=
  fun i => max (pre A d W b ⟨(i 0).val, (i 0).isLt⟩ ⟨(i 1).val, (i 1).isLt⟩) (Ideal.ofBits .f32 0x00000000#32)
    * d (ix1 ⟨(i 0).val, (i 0).isLt⟩)

/-- The regressor on the second layer: one number per node. -/
def readout (A : (⟨2, ![50000, 128]⟩ : Shape).Idx → EReal) (d : (⟨1, ![50000]⟩ : Shape).Idx → EReal)
    (W : (⟨2, ![128, 128]⟩ : Shape).Idx → EReal) (b : (⟨1, ![128]⟩ : Shape).Idx → EReal)
    (Wr : (⟨2, ![128, 1]⟩ : Shape).Idx → EReal) (br : (⟨1, ![1]⟩ : Shape).Idx → EReal) :
    (⟨1, ![50000]⟩ : Shape).Idx → EReal :=
  fun i => (∑ j : Fin 128, pre A d W b ⟨(i 0).val, (i 0).isLt⟩ j * Wr (ix2 j (0 : Fin 1))) + br (ix1 (0 : Fin 1))

end Cert.GraphConv

end
-- ==== Proof.Network.lean ====
/-
  The whole network as one function of the nine arguments, on the extended reals: the first aggregate A₁ (the features
  scaled by the inverse-root degrees d, passed along the edges once) goes through the first dense layer, rectified and
  rescaled (Cert.GraphConv.hidden); that goes along the edges again (Shared.aggregate); and the regressor reads the
  second dense layer out, one number per node (Cert.GraphConv.readout). A₁, d and the round of message passing are the
  reference's own stages, kept closed: both programs compute them by the same operations.
-/
import proofs.«168598_j43009802502548_2_alg».proof.Proof.Gen.ReferenceIdeal.Read
import proofs.«168598_j43009802502548_2_alg».proof.Proof.SharedHost
import proofs.«168598_j43009802502548_2_alg».proof.Proof.Spec

noncomputable section

namespace Cert.ReferenceIdeal.Shared

open Cert.ReferenceIdeal Cert.ReferenceIdeal.Gen Cert.ReferenceIdeal.Read
open Idealize.ShloMosaic Idealize.ShloMosaic.TcCoe

/-- read-out ∘ message passing ∘ first layer, of the first aggregate, the inverse-root degrees and the parameters. -/
def network (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal)) :
    (⟨S50000, .f32⟩ : BufTy).Contents (Elt Ideal) :=
  Cert.GraphConv.readout
    (aggregate (F := Ideal) (Cert.GraphConv.hidden (val_main_v20 (F := Ideal) x0 x1 x2) (val_main_v7 (F := Ideal) x2) x3 x4) x1 x2)
    (val_main_v7 (F := Ideal) x2) x5 x6 x7 x8

end Cert.ReferenceIdeal.Shared

end
-- ==== Proof.LibDenseLayouts.lean ====
/-
  Small layouts that a row-wise dense layer meets, read at an index given by coordinates, at any extents and any
  element type: a column [a, 1] spread along its unit axis to [a, b]; a single entry [1, 1] spread down a column
  [a, 1]; a column [a, 1] read as the vector [a]; a vector of one entry read as [1, 1].
-/
import Idealize.ShloMosaic.Lib.ValueIdx
import Idealize.ShloMosaic.Lib.Pipeline.Value

namespace Cert.Lib.DenseLayouts

open Idealize.ShloMosaic Idealize.ShloMosaic.ValueIdx

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single entry [1, 1] broadcast down a column [a, 1] reads, at (i, u), that entry. -/
theorem broadcastTo_11_a1_apply {α : Type} {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ => rfl
  | ⟨1, _⟩ => rfl

/-- A column [a, 1] cast to the vector [a] reads, at i, the column's entry i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector of one entry cast to [1, 1] reads, at (u, u'), that entry. -/
theorem shapeCast_1_11_apply {α : Type} (x : (⟨1, ![1]⟩ : Shape).Idx → α)
    (h : (⟨1, ![1]⟩ : Shape).ShapeCasts ⟨2, ![1, 1]⟩) (u u' : Fin 1) :
    shapeCast ⟨2, ![1, 1]⟩ x h (ix2 u u') = x (ix1 (0 : Fin 1)) :=
  shapeCast_apply x h _ _ (by
    have hu : u.val = 0 := by omega
    have hu' : u'.val = 0 := by omega
    rw [Shape.rowMajor_val_two, Shape.rowMajor_val_one]
    show (0 : ℕ) = u.val * 1 + u'.val
    omega)

end Cert.Lib.DenseLayouts
-- ==== Proof.DenseProduct.lean ====
/-
  The two reductions in the dense bodies, read at an index on the extended reals: the 5000 × 128 by 128 × 128 matrix
  product into a zero accumulator is, at (p, q), the sum over the contracted feature k of X[p,k] · W[k,q] (the changes
  of float format around it are the identity); the sum along the lanes of a 5000 × 128 block is, at row p, the sum over
  q of X[p,q].
-/
import proofs.«168598_j43009802502548_2_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.DenseProduct

open Cert.KernelIdeal
open Idealize.ShloMosaic Idealize.ShloMosaic.ValueIdx

/-- The product's operand indices at output entry i and contracted feature q, coordinate by coordinate. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's matrix product into a zero accumulator, read at (p, q): the sum over the 128 contracted features. The
    two changes of float format around it are the identity on extended reals. -/
theorem product_apply (X : FVec Ideal S5000x128 .f32) (W : FVec Ideal S128x128 .f32) (h1 h2) (p : Fin 5000) (q : Fin 128) :
    matmul dot_S5000x128_S128x128_S5000x128_1_0_0_1_n_n none (truncf .bf16 X h1) (truncf .bf16 W h2)
        (constant S5000x128 .f32 0x00000000#32) (ix2 p q)
      = ∑ k : Fin 128, X (ix2 p k) * W (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [truncf_apply, truncf_apply, el, er]

/-- The sum along the 128 lanes of a 5000 × 128 block, read at row p. -/
theorem lane_sum (X : FVec Ideal S5000x128 .f32) (h : S5000x128.Reduces [1] S5000) (hφ : FKind.Formats .f32)
    (hacc : (0x00000000#32 : BitVec 32) = FKind.add.neutral .f32 hφ) (p : Fin 5000) :
    multiReduction .add [1] S5000 X 0x00000000#32 h hφ hacc (ix1 p) = ∑ q : Fin 128, X (ix2 p q) :=
  (Ideal.multiReduction_add_single X _ h hφ hacc (ix1 p)).trans
    (Finset.sum_congr rfl fun q _ => congrArg X (funext fun a => Fin.ext (by
      match a with
      | ⟨0, _⟩ => rfl
      | ⟨1, _⟩ => rfl)))

end Cert.KernelIdeal.DenseProduct

end
-- ==== Proof.ReluBlock.lean ====
/-
  The first dense layer's region. A grid point t handles rows 5000·t … 5000·t + 4999 of the aggregated features: it
  scales each row by the node's inverse-root degree, multiplies by the weight matrix, adds the bias, rectifies, and
  scales by the same inverse-root degree again. Here: that body's value at an entry of its block; that the block
  point t writes back is block t of one whole-array function (Cert.GraphConv.hidden of the arrays as the region finds
  them); that the ten blocks tile the array; hence the array after the region.
-/
import proofs.«168598_j43009802502548_2_alg».proof.Proof.Gen.KernelIdeal.Frame
import proofs.«168598_j43009802502548_2_alg».proof.Proof.Spec
import proofs.«168598_j43009802502548_2_alg».proof.Proof.LibDenseLayouts
import proofs.«168598_j43009802502548_2_alg».proof.Proof.DenseProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ReluBlock

open Cert.KernelIdeal Cert.KernelIdeal.Gen Cert.KernelIdeal.DenseProduct
open Idealize.ShloMosaic Idealize.ShloMosaic.TcCoe Idealize.ShloMosaic.ValueIdx Idealize.SL.Sem
open Idealize.ShloMosaic.Pipeline (Dat Cfg Window)

/-! ## The body at an entry of its block -/

/-- The body's stored value at entry (p, q) of its block, from the four blocks it loads. -/
theorem payload_apply (d : Vec Ideal S5000x1 .f32) (A : Vec Ideal S5000x128 .f32) (W : Vec Ideal S128x128 .f32)
    (b : Vec Ideal S1x128 .f32) (p : Fin 5000) (q : Fin 128) :
    k0_pay1 d A W b (ix2 p q)
      = max ((∑ k : Fin 128, (A (ix2 p k) * d (ix2 p (0 : Fin 1))) * W (ix2 k q)) + b (ix2 (0 : Fin 1) q))
          (Ideal.ofBits .f32 0x00000000#32) * d (ix2 p (0 : Fin 1)) := by
  unfold k0_pay1
  simp only [mulf_apply, addf_apply, maximumf_apply, broadcast_apply, shapeCast_self]
  rw [product_apply _ _ _ _ p q, Cert.Lib.DenseLayouts.broadcastTo_a1_ab_apply d _ p q, broadcastTo_1b_ab_apply b _ p q]
  simp only [mulf_apply, Cert.Lib.DenseLayouts.broadcastTo_a1_ab_apply]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the aggregate's and the degree column's blocks move down with
    the output's, one block of 5000 rows per point; the weight matrix and the bias row are one block; the output's
    block row stays below ten. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 9 ∧ win0_4.index t (1 : Fin 2) = 0 :=
  (by decide +kernel : ∀ t : Fin grid0.N, _)

/-- Every one of the ten row blocks is some point's. -/
theorem idx_onto : ∀ (q0 : Fin 10), ∃ t : Fin cfg0.N, win0_4.index t = ![q0.val, 0] :=
  (by decide +kernel : ∀ (q0 : Fin 10), ∃ t : Fin grid0.N, win0_4.index t = ![q0.val, 0])

/-- What the region leaves in its output array, as a function of the four arrays it finds: the degree column [50000, 1]
    and the bias row [1, 128] read back as vectors. -/
def result (A : S50000x128.Idx → EReal) (dcol : S50000x1.Idx → EReal) (W : S128x128.Idx → EReal)
    (brow : S1x128.Idx → EReal) : S50000x128.Idx → EReal :=
  Cert.GraphConv.hidden A (fun i => dcol (ix2 ⟨(i 0).val, (i 0).isLt⟩ (0 : Fin 1))) W
    (fun j => brow (ix2 (0 : Fin 1) ⟨(j 0).val, (j 0).isLt⟩))

/-- Entry (p, k) of the aggregate's block at point t is the array's entry (r, k), r the block's row offset plus p. -/
theorem read_agg (c : Dev nD) (t : Fin cfg0.N) (p : Fin 5000) (k : Fin 128) (r : Fin 50000)
    (hr : r.val = win0_4.index t (0 : Fin 2) * 5000 + p.val) :
    iblk0 V c 0 t (ix2 p k) = V c main_v20 (ix2 r k) := by
  obtain ⟨e0, e1, -⟩ := idx_facts t
  show V c main_v20 (((cfg0.win 0).blk t).view.emb (ix2 p k)) = V c main_v20 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Entry (p, 0) of the degree column's block at point t is the column's entry (r, 0). -/
theorem read_deg (c : Dev nD) (t : Fin cfg0.N) (p : Fin 5000) (r : Fin 50000)
    (hr : r.val = win0_4.index t (0 : Fin 2) * 5000 + p.val) :
    iblk0 V c 1 t (ix2 p (0 : Fin 1)) = V c main_v22 (ix2 r (0 : Fin 1)) := by
  obtain ⟨-, -, e2, e3, -⟩ := idx_facts t
  show V c main_v22 (((cfg0.win 1).blk t).view.emb (ix2 p (0 : Fin 1))) = V c main_v22 (ix2 r (0 : Fin 1))
  refine congrArg _ (funext fun a => Fin.ext ?_)
  match a with
  | ⟨0, _⟩ => show win0_1.index t (0 : Fin 2) * 5000 + 1 * p.val = r.val; omega
  | ⟨1, _⟩ => show win0_1.index t (1 : Fin 2) * 1 + 1 * 0 = 0; omega

/-- The weight matrix is one block: its block's entry is the array's. -/
theorem read_weights (c : Dev nD) (t : Fin cfg0.N) (k q : Fin 128) :
    iblk0 V c 2 t (ix2 k q) = V c main_arg3 (ix2 k q) := by
  obtain ⟨-, -, -, -, e4, e5, -⟩ := idx_facts t
  show V c main_arg3 (((cfg0.win 2).blk t).view.emb (ix2 k q)) = V c main_arg3 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The bias row is one block: its block's entry is the array's. -/
theorem read_bias (c : Dev nD) (t : Fin cfg0.N) (q : Fin 128) :
    iblk0 V c 3 t (ix2 (0 : Fin 1) q) = V c main_v21 (ix2 (0 : Fin 1) q) := by
  obtain ⟨-, -, -, -, -, -, e6, e7, -⟩ := idx_facts t
  show V c main_v21 (((cfg0.win 3).blk t).view.emb (ix2 (0 : Fin 1) q)) = V c main_v21 (ix2 (0 : Fin 1) q)
  refine congrArg _ (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- WHAT POINT t WRITES BACK is block t of the whole-array result. -/
theorem flushed (c : Dev nD) (t : Fin cfg0.N) :
    (dat0 V c).flushed 4 t = ((cfg0.win 4).blk t).view.read (Elt Ideal)
      (result (V c main_v20) (V c main_v22) (V c main_arg3) (V c main_v21)) := by
  show (cfg0.win 4).cut (grid0.coords t) ((dat0 V c).after 4 t) = _
  rw [after0_4]
  unfold out0_4
  rw [View.canon_unit_zero hz]
  simp only [View.ld_unit_zero (S := S5000x1) hz, View.ld_unit_zero (S := S5000x128) hz,
    View.ld_unit_zero (S := S128x128) hz, View.ld_unit_zero (S := S1x128) hz]
  obtain ⟨-, -, -, -, -, -, -, -, e8, e9⟩ := idx_facts t
  funext j
  obtain ⟨p, q, rfl⟩ : ∃ (p : Fin 5000) (q : Fin 128), j = ix2 p q := ⟨j 0, j 1, eq_ix2 j⟩
  have hp : p.val < 5000 := p.isLt
  have hrlt : win0_4.index t (0 : Fin 2) * 5000 + p.val < 50000 := by omega
  have hA : ∀ k : Fin 128, iblk0 V c 0 t (ix2 p k) = V c main_v20 (ix2 ⟨_, hrlt⟩ k) := fun k => read_agg V c t p k ⟨_, hrlt⟩ rfl
  have hD : iblk0 V c 1 t (ix2 p (0 : Fin 1)) = V c main_v22 (ix2 ⟨_, hrlt⟩ (0 : Fin 1)) := read_deg V c t p ⟨_, hrlt⟩ rfl
  have hW : ∀ k : Fin 128, iblk0 V c 2 t (ix2 k q) = V c main_arg3 (ix2 k q) := fun k => read_weights V c t k q
  have hB : iblk0 V c 3 t (ix2 (0 : Fin 1) q) = V c main_v21 (ix2 (0 : Fin 1) q) := read_bias V c t q
  refine (payload_apply (iblk0 V c 1 t) (iblk0 V c 0 t) (iblk0 V c 2 t) (iblk0 V c 3 t) p q).trans ?_
  simp only [hA, hD, hW, hB]
  have he : ((cfg0.win 4).blk t).view.emb (ix2 p q) = ix2 (⟨_, hrlt⟩ : Fin 50000) q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  show _ = result (V c main_v20) (V c main_v22) (V c main_arg3) (V c main_v21) (((cfg0.win 4).blk t).view.emb (ix2 p q))
  rw [he]
  rfl

/-- An index of the array is in point t's block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v23).slice (win0_4.rect t)).set ↔ _
  rw [View.set_slice_whole, Rect.mem_set_unit]
  exact Iff.rfl

/-- The ten blocks tile the array: row i is in the block of point i / 5000. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE ARRAY after the region: the rectified, rescaled dense layer of the arrays the region found. -/
theorem final (c : Dev nD) :
    (dat0 V c).arrAt 4 cfg0.N = result (V c main_v20) (V c main_v22) (V c main_arg3) (V c main_v21) :=
  (dat0 V c).arrAt_eq_of_cover 4 _ (fun t _ => flushed V c t) cover

end Cert.KernelIdeal.ReluBlock

end
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.RegressBlock.lean ====
/-
  The read-out region. A grid point t handles rows 5000·t … 5000·t + 4999 of the second aggregate: it scales each row
  by the node's inverse-root degree, multiplies by the second weight matrix, adds the bias, multiplies each feature by
  the regressor's weight, sums the 128 features of the row and adds the regressor's bias: one number per node, kept
  as a column. Here: that body's value at an entry of its block; that the block point t writes back is block t of one
  whole-array function (Cert.GraphConv.readout of the arrays as the region finds them, as a column); that the ten
  blocks tile the column; hence the array after the region.
-/
import proofs.«168598_j43009802502548_2_alg».proof.Proof.Gen.KernelIdeal.Frame
import proofs.«168598_j43009802502548_2_alg».proof.Proof.Spec
import proofs.«168598_j43009802502548_2_alg».proof.Proof.LibDenseLayouts
import proofs.«168598_j43009802502548_2_alg».proof.Proof.LibColumnCast
import proofs.«168598_j43009802502548_2_alg».proof.Proof.DenseProduct
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegressBlock

open Cert.KernelIdeal Cert.KernelIdeal.Gen Cert.KernelIdeal.DenseProduct
open Idealize.ShloMosaic Idealize.ShloMosaic.TcCoe Idealize.ShloMosaic.ValueIdx Idealize.SL.Sem
open Idealize.ShloMosaic.Pipeline (Dat Cfg Window)

/-! ## The body at an entry of its block -/

/-- The body's stored value at entry (p, u) of its column block, from the six blocks it loads. -/
theorem payload_apply (d : Vec Ideal S5000x1 .f32) (A : Vec Ideal S5000x128 .f32) (W : Vec Ideal S128x128 .f32)
    (b : Vec Ideal S1x128 .f32) (wr : Vec Ideal S1x128 .f32) (br : Vec Ideal S1x1 .f32) (p : Fin 5000) (u : Fin 1) :
    k1_pay1 d A W b wr br (ix2 p u)
      = (∑ j : Fin 128, ((∑ k : Fin 128, (A (ix2 p k) * d (ix2 p (0 : Fin 1))) * W (ix2 k j)) + b (ix2 (0 : Fin 1) j))
            * wr (ix2 (0 : Fin 1) j))
          + br (ix2 (0 : Fin 1) (0 : Fin 1)) := by
  unfold k1_pay1
  simp only [addf_apply, shapeCast_self]
  refine congrArg₂ (· + ·) ?_ ?_
  · refine (Cert.Lib.ColumnCast.shapeCast_a_a1_apply _ _ p u).trans ?_
    refine (lane_sum _ _ _ _ p).trans ?_
    refine Finset.sum_congr rfl fun j _ => ?_
    simp only [mulf_apply, addf_apply]
    rw [product_apply _ _ _ _ p j, broadcastTo_1b_ab_apply b _ p j, broadcastTo_1b_ab_apply wr _ p j]
    simp only [mulf_apply, Cert.Lib.DenseLayouts.broadcastTo_a1_ab_apply]
  · exact Cert.Lib.DenseLayouts.broadcastTo_11_a1_apply br _ p u

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the aggregate's and the degree column's blocks move down with
    the output's, one block of 5000 rows per point; the weight matrix, the two rows and the single entry are one
    block each; the output's block row stays below ten. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 9 ∧ win1_6.index t (1 : Fin 2) = 0 :=
  (by decide +kernel : ∀ t : Fin grid1.N, _)

/-- Every one of the ten row blocks is some point's. -/
theorem idx_onto : ∀ (q0 : Fin 10), ∃ t : Fin cfg1.N, win1_6.index t = ![q0.val, 0] :=
  (by decide +kernel : ∀ (q0 : Fin 10), ∃ t : Fin grid1.N, win1_6.index t = ![q0.val, 0])

/-- What the region leaves in its output column, as a function of the six arrays it finds: the degree column
    [50000, 1], the bias row and the regressor's row [1, 128] and its single bias entry [1, 1] read back as the
    vectors and the column the specification takes. -/
def result (A : S50000x128.Idx → EReal) (dcol : S50000x1.Idx → EReal) (W : S128x128.Idx → EReal)
    (brow : S1x128.Idx → EReal) (wrow : S1x128.Idx → EReal) (b11 : S1x1.Idx → EReal) : S50000x1.Idx → EReal :=
  fun i => Cert.GraphConv.readout A (fun i => dcol (ix2 ⟨(i 0).val, (i 0).isLt⟩ (0 : Fin 1))) W
    (fun j => brow (ix2 (0 : Fin 1) ⟨(j 0).val, (j 0).isLt⟩))
    (fun j => wrow (ix2 (0 : Fin 1) ⟨(j 0).val, (j 0).isLt⟩))
    (fun _ => b11 (ix2 (0 : Fin 1) (0 : Fin 1))) (ix1 ⟨(i 0).val, (i 0).isLt⟩)

/-- Entry (p, k) of the aggregate's block at point t is the array's entry (r, k), r the block's row offset plus p. -/
theorem read_agg (c : Dev nD) (t : Fin cfg1.N) (p : Fin 5000) (k : Fin 128) (r : Fin 50000)
    (hr : r.val = win1_6.index t (0 : Fin 2) * 5000 + p.val) :
    iblk1 V c 0 t (ix2 p k) = V c main_v33 (ix2 r k) := by
  obtain ⟨e0, e1, -⟩ := idx_facts t
  show V c main_v33 (((cfg1.win 0).blk t).view.emb (ix2 p k)) = V c main_v33 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Entry (p, 0) of the degree column's block at point t is the column's entry (r, 0). -/
theorem read_deg (c : Dev nD) (t : Fin cfg1.N) (p : Fin 5000) (r : Fin 50000)
    (hr : r.val = win1_6.index t (0 : Fin 2) * 5000 + p.val) :
    iblk1 V c 1 t (ix2 p (0 : Fin 1)) = V c main_v35 (ix2 r (0 : Fin 1)) := by
  obtain ⟨-, -, e2, e3, -⟩ := idx_facts t
  show V c main_v35 (((cfg1.win 1).blk t).view.emb (ix2 p (0 : Fin 1))) = V c main_v35 (ix2 r (0 : Fin 1))
  refine congrArg _ (funext fun a => Fin.ext ?_)
  match a with
  | ⟨0, _⟩ => show win1_1.index t (0 : Fin 2) * 5000 + 1 * p.val = r.val; omega
  | ⟨1, _⟩ => show win1_1.index t (1 : Fin 2) * 1 + 1 * 0 = 0; omega

/-- The weight matrix is one block: its block's entry is the array's. -/
theorem read_weights (c : Dev nD) (t : Fin cfg1.N) (k q : Fin 128) :
    iblk1 V c 2 t (ix2 k q) = V c main_arg5 (ix2 k q) := by
  obtain ⟨-, -, -, -, e4, e5, -⟩ := idx_facts t
  show V c main_arg5 (((cfg1.win 2).blk t).view.emb (ix2 k q)) = V c main_arg5 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The bias row is one block: its block's entry is the array's. -/
theorem read_bias (c : Dev nD) (t : Fin cfg1.N) (q : Fin 128) :
    iblk1 V c 3 t (ix2 (0 : Fin 1) q) = V c main_v34 (ix2 (0 : Fin 1) q) := by
  obtain ⟨-, -, -, -, -, -, e6, e7, -⟩ := idx_facts t
  show V c main_v34 (((cfg1.win 3).blk t).view.emb (ix2 (0 : Fin 1) q)) = V c main_v34 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- The regressor's row is one block: its block's entry is the array's. -/
theorem read_regressor (c : Dev nD) (t : Fin cfg1.N) (q : Fin 128) :
    iblk1 V c 4 t (ix2 (0 : Fin 1) q) = V c main_v37 (ix2 (0 : Fin 1) q) := by
  obtain ⟨-, -, -, -, -, -, -, -, e8, e9, -⟩ := idx_facts t
  show V c main_v37 (((cfg1.win 4).blk t).view.emb (ix2 (0 : Fin 1) q)) = V c main_v37 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The regressor's bias is one block of one entry. -/
theorem read_offset (c : Dev nD) (t : Fin cfg1.N) :
    iblk1 V c 5 t (ix2 (0 : Fin 1) (0 : Fin 1)) = V c main_v38 (ix2 (0 : Fin 1) (0 : Fin 1)) := by
  obtain ⟨-, -, -, -, -, -, -, -, -, -, e10, e11, -⟩ := idx_facts t
  show V c main_v38 (((cfg1.win 5).blk t).view.emb (ix2 (0 : Fin 1) (0 : Fin 1))) = V c main_v38 (ix2 (0 : Fin 1) (0 : Fin 1))
  refine congrArg _ (funext fun a => Fin.ext ?_)
  match a with
  | ⟨0, _⟩ => show win1_5.index t (0 : Fin 2) * 1 + 1 * 0 = 0; omega
  | ⟨1, _⟩ => show win1_5.index t (1 : Fin 2) * 1 + 1 * 0 = 0; omega

/-- WHAT POINT t WRITES BACK is block t of the whole-array result. -/
theorem flushed (c : Dev nD) (t : Fin cfg1.N) :
    (dat1 V c).flushed 6 t = ((cfg1.win 6).blk t).view.read (Elt Ideal)
      (result (V c main_v33) (V c main_v35) (V c main_arg5) (V c main_v34) (V c main_v37) (V c main_v38)) := by
  show (cfg1.win 6).cut (grid1.coords t) ((dat1 V c).after 6 t) = _
  rw [after1_6]
  unfold out1_6
  rw [View.canon_unit_zero hz]
  simp only [View.ld_unit_zero (S := S5000x1) hz, View.ld_unit_zero (S := S5000x128) hz,
    View.ld_unit_zero (S := S128x128) hz, View.ld_unit_zero (S := S1x128) hz, View.ld_unit_zero (S := S1x1) hz]
  obtain ⟨-, -, -, -, -, -, -, -, -, -, -, -, e12, e13⟩ := idx_facts t
  funext j
  obtain ⟨p, u, rfl⟩ : ∃ (p : Fin 5000) (u : Fin 1), j = ix2 p u := ⟨j 0, j 1, eq_ix2 j⟩
  have hp : p.val < 5000 := p.isLt
  have hu : u.val = 0 := by omega
  have hrlt : win1_6.index t (0 : Fin 2) * 5000 + p.val < 50000 := by omega
  have hA : ∀ k : Fin 128, iblk1 V c 0 t (ix2 p k) = V c main_v33 (ix2 ⟨_, hrlt⟩ k) := fun k => read_agg V c t p k ⟨_, hrlt⟩ rfl
  have hD : iblk1 V c 1 t (ix2 p (0 : Fin 1)) = V c main_v35 (ix2 ⟨_, hrlt⟩ (0 : Fin 1)) := read_deg V c t p ⟨_, hrlt⟩ rfl
  have hW : ∀ k q : Fin 128, iblk1 V c 2 t (ix2 k q) = V c main_arg5 (ix2 k q) := fun k q => read_weights V c t k q
  have hB : ∀ q : Fin 128, iblk1 V c 3 t (ix2 (0 : Fin 1) q) = V c main_v34 (ix2 (0 : Fin 1) q) := fun q => read_bias V c t q
  have hR : ∀ q : Fin 128, iblk1 V c 4 t (ix2 (0 : Fin 1) q) = V c main_v37 (ix2 (0 : Fin 1) q) := fun q => read_regressor V c t q
  have hO : iblk1 V c 5 t (ix2 (0 : Fin 1) (0 : Fin 1)) = V c main_v38 (ix2 (0 : Fin 1) (0 : Fin 1)) := read_offset V c t
  refine (payload_apply (iblk1 V c 1 t) (iblk1 V c 0 t) (iblk1 V c 2 t) (iblk1 V c 3 t) (iblk1 V c 4 t) (iblk1 V c 5 t) p u).trans ?_
  simp only [hA, hD, hW, hB, hR, hO]
  have he : ((cfg1.win 6).blk t).view.emb (ix2 p u) = ix2 (⟨_, hrlt⟩ : Fin 50000) (0 : Fin 1) := by
    funext a; apply Fin.ext
    match a with
    | ⟨0, _⟩ => show win1_6.index t (0 : Fin 2) * 5000 + 1 * p.val = win1_6.index t (0 : Fin 2) * 5000 + p.val; omega
    | ⟨1, _⟩ => show win1_6.index t (1 : Fin 2) * 1 + 1 * u.val = 0; omega
  show _ = result (V c main_v33) (V c main_v35) (V c main_arg5) (V c main_v34) (V c main_v37) (V c main_v38)
    (((cfg1.win 6).blk t).view.emb (ix2 p u))
  rw [he]
  rfl

/-- An index of the column is in point t's block iff each coordinate is in the block's range on its axis. -/
theorem mem_blk (t : Fin cfg1.N) (i : S50000x1.Idx) :
    i ∈ ((cfg1.win 6).blk t).view.set ↔ ∀ a : Fin 2, win1_6.index t a * S5000x1.size a ≤ (i a).val
      ∧ (i a).val < win1_6.index t a * S5000x1.size a + S5000x1.size a := by
  show i ∈ ((View.whole main_v39).slice (win1_6.rect t)).set ↔ _
  rw [View.set_slice_whole, Rect.mem_set_unit]
  exact Iff.rfl

/-- The ten blocks tile the column: row i is in the block of point i / 5000. -/
theorem cover (i : S50000x1.Idx) :
    ∃ t : Fin cfg1.N, (cfg1.win 6).flush t = true ∧ i ∈ ((cfg1.win 6).blk t).view.set := by
  have hi0 : (i 0).val < 50000 := (i 0).isLt
  have hi1 : (i 1).val < 1 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 1 ≤ (i 1).val ∧ (i 1).val < win1_6.index t (1 : Fin 2) * 1 + 1
    omega

/-- THE ARRAY after the region: the regressor's read-out of the arrays the region found, as a column. -/
theorem final (c : Dev nD) :
    (dat1 V c).arrAt 6 cfg1.N
      = result (V c main_v33) (V c main_v35) (V c main_arg5) (V c main_v34) (V c main_v37) (V c main_v38) :=
  (dat1 V c).arrAt_eq_of_cover 6 _ (fun t _ => flushed V c t) cover

end Cert.KernelIdeal.RegressBlock

end
-- ==== Proof.KernelValue.lean ====
/-
  The idealized kernel's result as the network of its arguments. @main's buffer contents are a fold through five
  segments; here the fold is read where the two regions and the last reshape look. Before the first region the host
  operations are, statement for statement, the reference's: the aggregate the region finds is the reference's first
  aggregate A₁, the degree column its inverse-root degrees d as a column, the bias a row. The first region leaves
  hidden A₁ d W₁ b₁ (ReluBlock.final). Between the regions the host operations are one round of message passing and
  reshapes of the parameters; the second region leaves the read-out as a column (RegressBlock.final), and the last
  operation reads the column as a vector.
-/
import proofs.«168598_j43009802502548_2_alg».proof.Proof.Gen.KernelIdeal.Frame
import proofs.«168598_j43009802502548_2_alg».proof.Proof.Gen.ReferenceIdeal.Read
import proofs.«168598_j43009802502548_2_alg».proof.Proof.Network
import proofs.«168598_j43009802502548_2_alg».proof.Proof.ReluBlock
import proofs.«168598_j43009802502548_2_alg».proof.Proof.RegressBlock
import proofs.«168598_j43009802502548_2_alg».proof.Proof.LibColumnCast
import proofs.«168598_j43009802502548_2_alg».proof.Proof.LibDenseLayouts
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

/-! ## The column, row and single-entry forms the regions find, read back -/

/-- The first region's result, with the inverse-root degrees found as a column and the bias as a row. -/
theorem relu_result_eq (A : S50000x128.Idx → EReal) (d : S50000.Idx → EReal) (W : S128x128.Idx → EReal) (b : S128.Idx → EReal)
    (h1 : S50000.ShapeCasts S50000x1) (h2 : S128.ShapeCasts S1x128) :
    ReluBlock.result A (shapeCast S50000x1 d h1) W (shapeCast S1x128 b h2) = Cert.GraphConv.hidden A d W b := by
  have hd : (fun i : S50000.Idx => shapeCast S50000x1 d h1 (ix2 (⟨(i 0).val, (i 0).isLt⟩ : Fin 50000) (0 : Fin 1))) = d :=
    funext fun i => by
      rw [Cert.Lib.ColumnCast.shapeCast_a_a1_apply]
      exact congrArg d (funext fun a => by match a with | ⟨0, _⟩ => rfl)
  have hb : (fun j : S128.Idx => shapeCast S1x128 b h2 (ix2 (0 : Fin 1) (⟨(j 0).val, (j 0).isLt⟩ : Fin 128))) = b :=
    funext fun j => by
      rw [shapeCast_a_1a_apply]
      exact congrArg b (funext fun a => by match a with | ⟨0, _⟩ => rfl)
  unfold ReluBlock.result
  rw [hd, hb]

/-- The second region's column read as a vector, with the inverse-root degrees found as a column, the bias and the
    regressor's weights as rows and its bias as a single entry. -/
theorem regress_result_eq (A : S50000x128.Idx → EReal) (d : S50000.Idx → EReal) (W : S128x128.Idx → EReal) (b : S128.Idx → EReal)
    (wr : S128x1.Idx → EReal) (br : S1.Idx → EReal)
    (h1 : S50000.ShapeCasts S50000x1) (h2 : S128.ShapeCasts S1x128) (h3 : S128x1.ShapeCasts S128) (h4 : S128.ShapeCasts S1x128)
    (h5 : S1.ShapeCasts S1x1) (h6 : S50000x1.ShapeCasts S50000) :
    shapeCast S50000 (RegressBlock.result A (shapeCast S50000x1 d h1) W (shapeCast S1x128 b h2)
        (shapeCast S1x128 (shapeCast S128 wr h3) h4) (shapeCast S1x1 br h5)) h6
      = Cert.GraphConv.readout A d W b wr br := by
  have hd : (fun i : S50000.Idx => shapeCast S50000x1 d h1 (ix2 (⟨(i 0).val, (i 0).isLt⟩ : Fin 50000) (0 : Fin 1))) = d :=
    funext fun i => by
      rw [Cert.Lib.ColumnCast.shapeCast_a_a1_apply]
      exact congrArg d (funext fun a => by match a with | ⟨0, _⟩ => rfl)
  have hb : (fun j : S128.Idx => shapeCast S1x128 b h2 (ix2 (0 : Fin 1) (⟨(j 0).val, (j 0).isLt⟩ : Fin 128))) = b :=
    funext fun j => by
      rw [shapeCast_a_1a_apply]
      exact congrArg b (funext fun a => by match a with | ⟨0, _⟩ => rfl)
  funext i
  obtain ⟨r, rfl⟩ : ∃ r : Fin 50000, i = ix1 r := ⟨i 0, eq_ix1 i⟩
  rw [Cert.Lib.DenseLayouts.shapeCast_a1_a_apply]
  unfold RegressBlock.result
  rw [hd, hb]
  unfold Cert.GraphConv.readout
  simp only [shapeCast_a_1a_apply, Cert.Lib.DenseLayouts.shapeCast_a1_a_apply, Cert.Lib.DenseLayouts.shapeCast_1_11_apply]

/-! ## The fold, read -/

variable (m : (ℓ : Loc nD τ sig) → Buf (Elt Ideal) ℓ) (ρ : Dev nD → PrngReg)

/-- Before the first region: the aggregate is the reference's first aggregate. -/
theorem entry_aggregate (c : Dev nD) :
    V1 m ρ c main_v20 = Cert.ReferenceIdeal.Read.val_main_v20 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v20) = _
  after_results_simp <;> rfl

/-- Before the first region: the inverse-root degrees, as a vector. -/
theorem entry_degrees (c : Dev nD) :
    W1 m ρ c (Proc.devRef .tc main_v7) = Cert.ReferenceIdeal.Read.val_main_v7 (F := Ideal) (m ((c.tc : Thread nD τ).loc main_arg2)) := by
  show StableHlo.after hostOps0 (W0 m ρ c) (Proc.devRef .tc main_v7) = _
  after_results_simp <;> rfl

/-- Before the first region: the same as the column the region's window reads. -/
theorem entry_degree_column (c : Dev nD) :
    V1 m ρ c main_v22 = shapeCast S50000x1 (Cert.ReferenceIdeal.Read.val_main_v7 (F := Ideal) (m ((c.tc : Thread nD τ).loc main_arg2))) shapeCasts_S50000_S50000x1 := by
  show StableHlo.after hostOps0 (W0 m ρ c) (Proc.devRef .tc main_v22) = _
  after_results_simp <;> rfl

/-- Before the first region: the first weight matrix is the argument. -/
theorem entry_weights (c : Dev nD) : V1 m ρ c main_arg3 = (m ((c.tc : Thread nD τ).loc main_arg3)) := by
  show StableHlo.after hostOps0 (W0 m ρ c) (Proc.devRef .tc main_arg3) = _
  after_results_simp <;> rfl

/-- Before the first region: the first bias as a row. -/
theorem entry_bias_row (c : Dev nD) :
    V1 m ρ c main_v21 = shapeCast S1x128 (m ((c.tc : Thread nD τ).loc main_arg4)) shapeCasts_S128_S1x128 := by
  show StableHlo.after hostOps0 (W0 m ρ c) (Proc.devRef .tc main_v21) = _
  after_results_simp <;> rfl

/-- Before the first region: the edges' sources with the self loops appended. -/
theorem entry_sources (c : Dev nD) :
    W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp <;> rfl

/-- Before the first region: the edges' destinations with the self loops appended. -/
theorem entry_destinations (c : Dev nD) :
    W1 m ρ c (Proc.devRef .tc main_v2) = Cert.ReferenceIdeal.Read.val_main_v2 (F := Ideal) (m ((c.tc : Thread nD τ).loc main_arg2)) := by
  show StableHlo.after hostOps0 (W0 m ρ c) (Proc.devRef .tc main_v2) = _
  after_results_simp <;> rfl

/-- The second layer's parameters are untouched before the first region. -/
theorem entry_arg5 (c : Dev nD) : W1 m ρ c (Proc.devRef .tc main_arg5) = (m ((c.tc : Thread nD τ).loc main_arg5)) := by
  show StableHlo.after hostOps0 (W0 m ρ c) (Proc.devRef .tc main_arg5) = _
  after_results_simp <;> rfl
theorem entry_arg6 (c : Dev nD) : W1 m ρ c (Proc.devRef .tc main_arg6) = (m ((c.tc : Thread nD τ).loc main_arg6)) := by
  show StableHlo.after hostOps0 (W0 m ρ c) (Proc.devRef .tc main_arg6) = _
  after_results_simp <;> rfl
theorem entry_arg7 (c : Dev nD) : W1 m ρ c (Proc.devRef .tc main_arg7) = (m ((c.tc : Thread nD τ).loc main_arg7)) := by
  show StableHlo.after hostOps0 (W0 m ρ c) (Proc.devRef .tc main_arg7) = _
  after_results_simp <;> rfl
theorem entry_arg8 (c : Dev nD) : W1 m ρ c (Proc.devRef .tc main_arg8) = (m ((c.tc : Thread nD τ).loc main_arg8)) := by
  show StableHlo.after hostOps0 (W0 m ρ c) (Proc.devRef .tc main_arg8) = _
  after_results_simp <;> rfl

/-- What the first region leaves: the first layer of the first aggregate, rectified and rescaled. -/
theorem first_layer (c : Dev nD) :
    W2 m ρ c (Proc.devRef .tc main_v23)
      = Cert.GraphConv.hidden (Cert.ReferenceIdeal.Read.val_main_v20 (F := Ideal) (m ((c.tc : Thread nD τ).loc main_arg0)) (m ((c.tc : Thread nD τ).loc main_arg1)) (m ((c.tc : Thread nD τ).loc main_arg2)))
          (Cert.ReferenceIdeal.Read.val_main_v7 (F := Ideal) (m ((c.tc : Thread nD τ).loc main_arg2))) (m ((c.tc : Thread nD τ).loc main_arg3)) (m ((c.tc : Thread nD τ).loc main_arg4)) := by
  have h : W2 m ρ c (Proc.devRef .tc main_v23) = (dat0 (V1 m ρ) c).arrAt 4 cfg0.N := W2_arr m ρ c 4
  rw [h, ReluBlock.final (V1 m ρ) c, entry_aggregate, entry_degree_column, entry_weights, entry_bias_row, relu_result_eq]

/-- Before the second region: one round of message passing on what the first region left. -/
theorem mid_aggregate (c : Dev nD) :
    V3 m ρ c main_v33 = Cert.ReferenceIdeal.Shared.aggregate (F := Ideal) (W2 m ρ c (Proc.devRef .tc main_v23)) (m ((c.tc : Thread nD τ).loc main_arg1)) (m ((c.tc : Thread nD τ).loc main_arg2)) := by
  show StableHlo.after hostOps1 (W2 m ρ c) (Proc.devRef .tc main_v33) = _
  after_results_simp
  rw [W2_of_ne m ρ c main_v1 (by decide), W2_of_ne m ρ c main_v2 (by decide), entry_sources, entry_destinations]
  rfl

/-- Before the second region: the inverse-root degrees as a column again. -/
theorem mid_degree_column (c : Dev nD) :
    V3 m ρ c main_v35 = shapeCast S50000x1 (Cert.ReferenceIdeal.Read.val_main_v7 (F := Ideal) (m ((c.tc : Thread nD τ).loc main_arg2))) shapeCasts_S50000_S50000x1 := by
  show StableHlo.after hostOps1 (W2 m ρ c) (Proc.devRef .tc main_v35) = _
  after_results_simp
  rw [W2_of_ne m ρ c main_v7 (by decide), entry_degrees]
  rfl

/-- Before the second region: the second weight matrix is the argument. -/
theorem mid_weights (c : Dev nD) : V3 m ρ c main_arg5 = (m ((c.tc : Thread nD τ).loc main_arg5)) := by
  show StableHlo.after hostOps1 (W2 m ρ c) (Proc.devRef .tc main_arg5) = _
  after_results_simp
  rw [W2_of_ne m ρ c main_arg5 (by decide), entry_arg5]

/-- Before the second region: the second bias as a row. -/
theorem mid_bias_row (c : Dev nD) :
    V3 m ρ c main_v34 = shapeCast S1x128 (m ((c.tc : Thread nD τ).loc main_arg6)) shapeCasts_S128_S1x128 := by
  show StableHlo.after hostOps1 (W2 m ρ c) (Proc.devRef .tc main_v34) = _
  after_results_simp
  rw [W2_of_ne m ρ c main_arg6 (by decide), entry_arg6]
  rfl

/-- Before the second region: the regressor's one column as a row. -/
theorem mid_regressor_row (c : Dev nD) :
    V3 m ρ c main_v37 = shapeCast S1x128 (shapeCast S128 (m ((c.tc : Thread nD τ).loc main_arg7)) shapeCasts_S128x1_S128) shapeCasts_S128_S1x128 := by
  show StableHlo.after hostOps1 (W2 m ρ c) (Proc.devRef .tc main_v37) = _
  after_results_simp
  rw [W2_of_ne m ρ c main_arg7 (by decide), entry_arg7]
  rfl

/-- Before the second region: the regressor's bias as a single entry. -/
theorem mid_offset (c : Dev nD) :
    V3 m ρ c main_v38 = shapeCast S1x1 (m ((c.tc : Thread nD τ).loc main_arg8)) shapeCasts_S1_S1x1 := by
  show StableHlo.after hostOps1 (W2 m ρ c) (Proc.devRef .tc main_v38) = _
  after_results_simp
  rw [W2_of_ne m ρ c main_arg8 (by decide), entry_arg8]
  rfl

/-- THE RESULT: the last boundary's contents at the result buffer are the network of the arguments. -/
theorem value (c : Dev nD) :
    W5 m ρ c (Proc.devRef .tc main_v40)
      = Cert.ReferenceIdeal.Shared.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h40 : W5 m ρ c (Proc.devRef .tc main_v40)
      = shapeCast S50000 (W4 m ρ c (Proc.devRef .tc main_v39)) shapeCasts_S50000x1_S50000 := by
    show StableHlo.after hostOps2 (W4 m ρ c) (Proc.devRef .tc main_v40) = _
    after_results_simp <;> rfl
  have h39 : W4 m ρ c (Proc.devRef .tc main_v39) = (dat1 (V3 m ρ) c).arrAt 6 cfg1.N := W4_arr m ρ c 6
  rw [h40, h39, RegressBlock.final (V3 m ρ) c, mid_aggregate, mid_degree_column, mid_weights, mid_bias_row,
    mid_regressor_row, mid_offset, first_layer, regress_result_eq]
  rfl

end Cert.KernelIdeal.Fold

end
-- ==== Proof.ReferenceFirstLayer.lean ====
/-
  The reference's first layer read against the specification, on the extended reals: scale the aggregate's rows by the
  inverse-root degrees, multiply by the weights, add the bias, rectify, scale the rows again — entry by entry this is
  Cert.GraphConv.hidden of the first aggregate and the inverse-root degrees, which stay closed.
-/
import proofs.«168598_j43009802502548_2_alg».proof.Proof.Gen.ReferenceIdeal.Read
import proofs.«168598_j43009802502548_2_alg».proof.Proof.SharedHost
import proofs.«168598_j43009802502548_2_alg».proof.Proof.Spec

noncomputable section

namespace Cert.ReferenceIdeal.RefValue

open Cert.ReferenceIdeal Cert.ReferenceIdeal.Gen Cert.ReferenceIdeal.Read Cert.ReferenceIdeal.Shared
open Idealize.ShloMosaic Idealize.ShloMosaic.TcCoe Idealize.ShloMosaic.ValueIdx

/-- The reference's rescaled first layer is the specification's, of the first aggregate and the inverse-root degrees. -/
theorem first_layer (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal)) :
    val_main_v31 (F := Ideal) x0 x1 x2 x3 x4
      = Cert.GraphConv.hidden (val_main_v20 (F := Ideal) x0 x1 x2) (val_main_v7 (F := Ideal) x2) x3 x4 := by
  funext i
  have hl : ∀ k : Fin 128, lidx_main_v24 i k = ix2 (⟨(i 0).val, (i 0).isLt⟩ : Fin 50000) k := fun k => funext fun a => by
    match a with
    | ⟨0, _⟩ => rfl
    | ⟨1, _⟩ => rfl
  have hr : ∀ k : Fin 128, ridx_main_v24 i k = ix2 k (⟨(i 1).val, (i 1).isLt⟩ : Fin 128) := fun k => funext fun a => by
    match a with
    | ⟨0, _⟩ => rfl
    | ⟨1, _⟩ => rfl
  have hd : ∀ k : Fin 128, idx_main_v21 (idx_main_v22 (ix2 (⟨(i 0).val, (i 0).isLt⟩ : Fin 50000) k))
      = ix1 (⟨(i 0).val, (i 0).isLt⟩ : Fin 50000) := fun k => funext fun a => by
    match a with
    | ⟨0, _⟩ => rfl
  have hb : idx_main_v25 (idx_main_v26 i) = ix1 (⟨(i 1).val, (i 1).isLt⟩ : Fin 128) := funext fun a => by
    match a with
    | ⟨0, _⟩ => rfl
  have hd' : idx_main_v29 (idx_main_v30 i) = ix1 (⟨(i 0).val, (i 0).isLt⟩ : Fin 50000) := funext fun a => by
    match a with
    | ⟨0, _⟩ => rfl
  -- the contraction: each term is (A₁[r,k] · d[r]) · W[k,j]
  have hsum : (∑ k : Fin 128, (val_main_v23 (F := Ideal) x0 x1 x2) (lidx_main_v24 i k) * x3 (ridx_main_v24 i k))
      = ∑ k : Fin 128, (val_main_v20 (F := Ideal) x0 x1 x2 (ix2 (⟨(i 0).val, (i 0).isLt⟩ : Fin 50000) k)
          * val_main_v7 (F := Ideal) x2 (ix1 (⟨(i 0).val, (i 0).isLt⟩ : Fin 50000)))
          * x3 (ix2 k (⟨(i 1).val, (i 1).isLt⟩ : Fin 128)) :=
    Finset.sum_congr rfl fun k _ => by
      rw [hl k, hr k, val_main_v23_apply, val_main_v22_apply, val_main_v21_apply, hd k, Ideal.mulf_def]
  rw [val_main_v31_apply, val_main_v28_apply, val_main_v27_apply, val_main_v24_apply, val_main_v30_apply,
    val_main_v29_apply, val_main_v26_apply, val_main_v25_apply, val_main_call0_v0_apply, val_main_call0_cst_apply,
    hsum, hb, hd', Ideal.mulf_def, Ideal.maximumf_def, Ideal.addf_def, Ideal.ofBits_def]
  unfold Cert.GraphConv.hidden Cert.GraphConv.pre
  rfl

end Cert.ReferenceIdeal.RefValue

end
-- ==== Proof.ReferenceReadout.lean ====
/-
  The reference's result read against the specification, on the extended reals: the dense step on the second
  aggregate, then the product with the regressor's one column and its bias, reshaped to one number per node — entry by
  entry this is Cert.GraphConv.readout of the second aggregate, which stays closed.
-/
import proofs.«168598_j43009802502548_2_alg».proof.Proof.Gen.ReferenceIdeal.Read
import proofs.«168598_j43009802502548_2_alg».proof.Proof.SharedHost
import proofs.«168598_j43009802502548_2_alg».proof.Proof.Spec

noncomputable section

namespace Cert.ReferenceIdeal.RefValue

open Cert.ReferenceIdeal Cert.ReferenceIdeal.Gen Cert.ReferenceIdeal.Read Cert.ReferenceIdeal.Shared
open Idealize.ShloMosaic Idealize.ShloMosaic.TcCoe Idealize.ShloMosaic.ValueIdx

/-- The reference's result is the specification's read-out of its second aggregate. -/
theorem result (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal)) :
    val_main_v53 (F := Ideal) x0 x1 x2 x3 x4 x5 x6 x7 x8
      = Cert.GraphConv.readout (val_main_v41 (F := Ideal) x0 x1 x2 x3 x4) (val_main_v7 (F := Ideal) x2) x5 x6 x7 x8 := by
  funext i
  have h49l : ∀ j : Fin 128, lidx_main_v49 (idx_main_v53 i) j = ix2 (⟨(i 0).val, (i 0).isLt⟩ : Fin 50000) j :=
    fun j => funext fun a => Fin.ext (by
      match a with
      | ⟨0, _⟩ => exact Nat.div_one _
      | ⟨1, _⟩ => rfl)
  have h49r : ∀ j : Fin 128, ridx_main_v49 (idx_main_v53 i) j = ix2 j (0 : Fin 1) := fun j => funext fun a => by
    match a with
    | ⟨0, _⟩ => rfl
    | ⟨1, _⟩ => rfl
  have h45l : ∀ j k : Fin 128, lidx_main_v45 (ix2 (⟨(i 0).val, (i 0).isLt⟩ : Fin 50000) j) k = ix2 (⟨(i 0).val, (i 0).isLt⟩ : Fin 50000) k := fun j k => funext fun a => by
    match a with
    | ⟨0, _⟩ => rfl
    | ⟨1, _⟩ => rfl
  have h45r : ∀ j k : Fin 128, ridx_main_v45 (ix2 (⟨(i 0).val, (i 0).isLt⟩ : Fin 50000) j) k = ix2 k j :=
    fun j k => funext fun a => by
    match a with
    | ⟨0, _⟩ => rfl
    | ⟨1, _⟩ => rfl
  have hd : ∀ k : Fin 128, idx_main_v42 (idx_main_v43 (ix2 (⟨(i 0).val, (i 0).isLt⟩ : Fin 50000) k)) = ix1 (⟨(i 0).val, (i 0).isLt⟩ : Fin 50000) := fun k => funext fun a => by
    match a with
    | ⟨0, _⟩ => rfl
  have hb : ∀ j : Fin 128, idx_main_v46 (idx_main_v47 (ix2 (⟨(i 0).val, (i 0).isLt⟩ : Fin 50000) j)) = ix1 j :=
    fun j => funext fun a => by
    match a with
    | ⟨0, _⟩ => rfl
  have hbr : idx_main_v50 (idx_main_v51 (idx_main_v53 i)) = ix1 (0 : Fin 1) := funext fun a => by
    match a with
    | ⟨0, _⟩ => rfl
  -- the inner contraction at row r and feature j: each term is (A₂[r,k] · d[r]) · W₂[k,j]
  have hin : ∀ j : Fin 128,
      (∑ k : Fin 128, (val_main_v44 (F := Ideal) x0 x1 x2 x3 x4) (lidx_main_v45 (ix2 (⟨(i 0).val, (i 0).isLt⟩ : Fin 50000) j) k)
          * x5 (ridx_main_v45 (ix2 (⟨(i 0).val, (i 0).isLt⟩ : Fin 50000) j) k))
        = ∑ k : Fin 128, (val_main_v41 (F := Ideal) x0 x1 x2 x3 x4 (ix2 (⟨(i 0).val, (i 0).isLt⟩ : Fin 50000) k) * val_main_v7 (F := Ideal) x2 (ix1 (⟨(i 0).val, (i 0).isLt⟩ : Fin 50000)))
            * x5 (ix2 k j) :=
    fun j => Finset.sum_congr rfl fun k _ => by
      rw [h45l j k, h45r j k, val_main_v44_apply, val_main_v43_apply, val_main_v42_apply, hd k, Ideal.mulf_def]
  -- the outer contraction with the regressor's one column
  have hout : (∑ j : Fin 128, (val_main_v48 (F := Ideal) x0 x1 x2 x3 x4 x5 x6) (lidx_main_v49 (idx_main_v53 i) j)
          * x7 (ridx_main_v49 (idx_main_v53 i) j))
        = ∑ j : Fin 128, ((∑ k : Fin 128, (val_main_v41 (F := Ideal) x0 x1 x2 x3 x4 (ix2 (⟨(i 0).val, (i 0).isLt⟩ : Fin 50000) k)
              * val_main_v7 (F := Ideal) x2 (ix1 (⟨(i 0).val, (i 0).isLt⟩ : Fin 50000))) * x5 (ix2 k j)) + x6 (ix1 j)) * x7 (ix2 j (0 : Fin 1)) :=
    Finset.sum_congr rfl fun j _ => by
      rw [h49l j, h49r j, val_main_v48_apply, val_main_v45_apply, hin j, val_main_v47_apply, val_main_v46_apply, hb j,
        Ideal.addf_def]
  rw [val_main_v53_apply, val_main_v52_apply, val_main_v49_apply, hout, val_main_v51_apply, val_main_v50_apply, hbr,
    Ideal.addf_def]
  unfold Cert.GraphConv.readout Cert.GraphConv.pre
  rfl

end Cert.ReferenceIdeal.RefValue

end
-- ==== Proof.ReferenceValue.lean ====
/-
  The reference's result is the network: its read-out of the second aggregate, the second aggregate one round of
  message passing on the first layer, the first layer the specification's.
-/
import proofs.«168598_j43009802502548_2_alg».proof.Proof.Gen.ReferenceIdeal.Read
import proofs.«168598_j43009802502548_2_alg».proof.Proof.SharedHost
import proofs.«168598_j43009802502548_2_alg».proof.Proof.Spec
import proofs.«168598_j43009802502548_2_alg».proof.Proof.Network
import proofs.«168598_j43009802502548_2_alg».proof.Proof.ReferenceFirstLayer
import proofs.«168598_j43009802502548_2_alg».proof.Proof.ReferenceReadout

noncomputable section

namespace Cert.ReferenceIdeal.RefValue

open Cert.ReferenceIdeal Cert.ReferenceIdeal.Gen Cert.ReferenceIdeal.Read Cert.ReferenceIdeal.Shared
open Idealize.ShloMosaic Idealize.ShloMosaic.TcCoe Idealize.ShloMosaic.ValueIdx

/-- The reference's result is the network of its arguments. -/
theorem result_eq (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x1, .f32⟩ : BufTy).Contents (Elt Ideal)) (x8 : (⟨S1, .f32⟩ : BufTy).Contents (Elt Ideal)) :
    val_main_v53 (F := Ideal) x0 x1 x2 x3 x4 x5 x6 x7 x8 = network x0 x1 x2 x3 x4 x5 x6 x7 x8 := by
  rw [result, second_aggregate, first_layer]
  rfl

end Cert.ReferenceIdeal.RefValue

end
-- ==== Proof.lean ====
/-
  A two-layer graph convolution with symmetric degree normalisation and a linear regressor on 50000 nodes with 128
  features, over 600000 directed edges to which the 50000 self loops are appended.

  With d the inverse square roots of the in-degrees (self loops counted) and "one round of message passing" the map
  that gathers a feature row along every edge's source and sums the rows at the edge's destination, both programs
  compute, on the extended reals,

      A₁  = one round on the rows of x scaled by d
      H   = max ((A₁ scaled by d) · W₁ + b₁, 0) scaled by d
      A₂  = one round on H
      out = ((A₂ scaled by d) · W₂ + b₂) · Wr + br                    (one number per node).

  They differ in arrangement only. The reference runs every step as a whole-array host operation. The kernel's program
  shares the host operations up to A₁, statement for statement; it then computes H in a region of ten points, 5000 rows
  each (the rectifier and both scalings fused around the matrix product), A₂ by the same host round, and out in a
  second region of ten points, where the product with the regressor's one column is a feature-wise product followed by
  a sum along the row. A sum of products is the same extended real whatever its order, so no finiteness is used: the
  two results are one function of the nine arguments (Shared.network) — the reference's by reading its stages entry
  by entry (RefValue.result_eq), the kernel's by reading the contents at the boundaries of its five segments
  (Fold.value) under the run that keeps the result (WholeRun.run). The ideal pass rewrote nothing, so the kernel's
  idealization is its own text. The three frames are the generated ones.
-/
import proofs.«168598_j43009802502548_2_alg».proof.Defs
import proofs.«168598_j43009802502548_2_alg».proof.Proof.Gen.Kernel
import proofs.«168598_j43009802502548_2_alg».proof.Proof.Gen.Kernel.Skeleton
import proofs.«168598_j43009802502548_2_alg».proof.Proof.Gen.Kernel.Launch
import proofs.«168598_j43009802502548_2_alg».proof.Proof.Gen.Kernel.Points
import proofs.«168598_j43009802502548_2_alg».proof.Proof.Gen.Kernel.Frame
import proofs.«168598_j43009802502548_2_alg».proof.Proof.Gen.KernelIdeal
import proofs.«168598_j43009802502548_2_alg».proof.Proof.Gen.KernelIdeal.Skeleton
import proofs.«168598_j43009802502548_2_alg».proof.Proof.Gen.KernelIdeal.Launch
import proofs.«168598_j43009802502548_2_alg».proof.Proof.Gen.KernelIdeal.Points
import proofs.«168598_j43009802502548_2_alg».proof.Proof.Gen.KernelIdeal.Frame
import proofs.«168598_j43009802502548_2_alg».proof.Proof.Gen.ReferenceIdeal
import proofs.«168598_j43009802502548_2_alg».proof.Proof.Gen.Pre_finite_inputs
import proofs.«168598_j43009802502548_2_alg».proof.Proof.Gen.ReferenceIdeal.Run
import proofs.«168598_j43009802502548_2_alg».proof.Proof.Gen.ReferenceIdeal.Read
import proofs.«168598_j43009802502548_2_alg».proof.Proof.KernelRun
import proofs.«168598_j43009802502548_2_alg».proof.Proof.KernelValue
import proofs.«168598_j43009802502548_2_alg».proof.Proof.ReferenceValue
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the nine arguments both idealized programs end with the network of those arguments. -/
theorem algebraic : Cert.algebraic_KernelIdeal_ReferenceIdeal := by
  intro m ρ m' ρ' _ hagree
  refine ⟨fun c => Cert.ReferenceIdeal.Shared.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.value m ρ c), (h c).2⟩)
      (Cert.KernelIdeal.WholeRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v53_eq, Cert.ReferenceIdeal.RefValue.result_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
